-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x32 : Shape := ⟨3, ![4096, 200, 32]⟩
abbrev S_ : Shape := ⟨0, ![]⟩

class Facts : Prop where
  bcast_S_S4096x200x32 : S_.BroadcastsInDim S4096x200x32 (![] : Fin 0 → Fin S4096x200x32.rank)
  reducesTo_S4096x200x32_S_d0_1_2 : S4096x200x32.ReducesTo [0, 1, 2] S_
  h_S_ : 0 < S_.numel

variable [Facts]

def fn {F : FTy → Type} [FloatOps F] (main_arg0 : FVec F S4096x200x32 .f32) (main_arg1 : FVec F S4096x200x32 .f32) : IVec S_ 1 :=
  let main_v0 : FVec F S4096x200x32 .f32 := Host.absf main_arg0
  let main_cst : FVec F S_ .f32 := constant S_ .f32 0x7F800000#32
  let main_v1 : FVec F S4096x200x32 .f32 := broadcastInDim S4096x200x32 ![] bcast_S_S4096x200x32 main_cst
  let main_v2 : IVec S4096x200x32 1 := cmpf .olt main_v0 main_v1
  let main_c : IVec S_ 1 := constantI S_ 1 1#1
  let main_v3 : IVec S_ 1 := (fun x v => Host.reduce IntOp.andi x v reducesTo_S4096x200x32_S_d0_1_2 h_S_) main_v2 main_c
  let main_v4 : FVec F S4096x200x32 .f32 := Host.absf main_arg1
  let main_cst_0 : FVec F S_ .f32 := constant S_ .f32 0x7F800000#32
  let main_v5 : FVec F S4096x200x32 .f32 := broadcastInDim S4096x200x32 ![] bcast_S_S4096x200x32 main_cst_0
  let main_v6 : IVec S4096x200x32 1 := cmpf .olt main_v4 main_v5
  let main_c_1 : IVec S_ 1 := constantI S_ 1 1#1
  let main_v7 : IVec S_ 1 := (fun x v => Host.reduce IntOp.andi x v reducesTo_S4096x200x32_S_d0_1_2 h_S_) main_v6 main_c_1
  let main_v8 : IVec S_ 1 := andi main_v3 main_v7
  main_v8
-- ==== Kernel.lean ====
abbrev S4096x200x32 : Shape := ⟨3, ![4096, 200, 32]⟩
abbrev S4096x6400 : Shape := ⟨2, ![4096, 6400]⟩
abbrev S4096 : Shape := ⟨1, ![4096]⟩
abbrev S256x6400 : Shape := ⟨2, ![256, 6400]⟩
abbrev S256 : Shape := ⟨1, ![256]⟩
abbrev S256x50x128 : Shape := ⟨3, ![256, 50, 128]⟩
abbrev S256x128 : Shape := ⟨2, ![256, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4096x200x32, .f32⟩
  | .hbm, ⟨1, _⟩ => ⟨S4096x200x32, .f32⟩
  | .hbm, ⟨2, _⟩ => ⟨S4096x6400, .f32⟩
  | .hbm, ⟨3, _⟩ => ⟨S4096x6400, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x6400, .f32⟩
  | .local _ .vmem, ⟨3, _⟩ => ⟨S256x6400, .f32⟩
  | .local _ .vmem, ⟨4, _⟩ => ⟨S256, .f32⟩
  | .local _ .vmem, ⟨5, _⟩ => ⟨S256, .f32⟩
  | _, _ => ⟨S4096x200x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x200x32_S4096x6400 : S4096x200x32.ShapeCasts S4096x6400
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  natLt_1_32 : 1 < 32
  shapeCasts_S256x6400_S256x50x128 : S256x6400.ShapeCasts S256x50x128
  reduces_S256x50x128_S256x128 : S256x50x128.Reduces [1] S256x128
  reduces_S256x128_S256 : S256x128.Reduces [1] S256
  inb_S256_S256_0 : ∀ a, (![0] : Fin 1 → Nat) a + S256.size a ≤ S256.size a
  h_S256 : 0 < S256.numel
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x6400.size a
  hwx0_0 : ∀ i : grid0.Coords, EltTy.bits .f32 = 32 ∨ (Rect.block (s := S4096x6400) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S4096x6400.size a
  hwx0_1 : ∀ i : grid0.Coords, EltTy.bits .f32 = 32 ∨ (Rect.block (s := S4096x6400) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)

variable [Facts₀]

abbrev win0_0 : Pipeline.Window sig grid0 :=
  Pipeline.Window.ofSpec (Memref.whole main_v0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x32 : Shape := ⟨3, ![4096, 200, 32]⟩
abbrev S_ : Shape := ⟨0, ![]⟩
abbrev S4096 : Shape := ⟨1, ![4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x200x32, .f32⟩
  | .hbm, ⟨1, _⟩ => ⟨S4096x200x32, .f32⟩
  | .hbm, ⟨2, _⟩ => ⟨S_, .f32⟩
  | .hbm, ⟨3, _⟩ => ⟨S4096x200x32, .f32⟩
  | .hbm, ⟨4, _⟩ => ⟨S4096x200x32, .i1⟩
  | .hbm, ⟨5, _⟩ => ⟨S4096x200x32, .f32⟩
  | .hbm, ⟨6, _⟩ => ⟨S4096x200x32, .f32⟩
  | .hbm, ⟨7, _⟩ => ⟨S4096x200x32, .f32⟩
  | .hbm, ⟨8, _⟩ => ⟨S4096x200x32, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S4096x200x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x200x32 : S_.BroadcastsInDim S4096x200x32 (![] : Fin 0 → Fin S4096x200x32.rank)
  reducesTo_S4096x200x32_S4096_d1_2 : S4096x200x32.ReducesTo [1, 2] S4096
  h_S_ : 0 < S_.numel
  reducesTo_S4096_S_d0 : S4096.ReducesTo [0] S_

variable [Facts₀]

class Facts : Prop extends Facts₀ where

variable [Facts]
-- ==== Proof.MaskedSqErr.lean ====
/-
  The mathematics of the masked squared-error loss, with no program in sight.

  One element contributes `(p - t) * (p - t) * [t ≠ 0]`, the bracket read as the real number 0 or 1. A sample (one row
  `b` of the batch) is the sum of its 200 × 32 = 6400 elements, listed by their flat position `j = h * 32 + d`, and the
  loss is the mean of the 4096 samples: the host's sum over the batch divided by the literal 4096.

  The only law needed is that a sum over a flat range of length `A * B` is the double sum over the quotient and the
  remainder, in either order: it holds in every commutative monoid, so on the extended reals it needs no finiteness.
-/
import Idealize.ShloMosaic.PureOps.Ideal
import Idealize.ShloMosaic.PureOps.Ideal.Laws
import Idealize.ShloMosaic.Lib.ValueIdx

noncomputable section

namespace Cert.MaskedSqErr

open Idealize.ShloMosaic Idealize.ShloMosaic.ValueIdx

/-! ## A flat range as quotient and remainder -/

/-- A position `a * B + b` with `a < A` and `b < B` lies below `A * B`. -/
theorem flat_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right _ (by omega)

/-- The sum over a flat range of length `N = A * B` is the sum over the quotient `a` of the sums over the remainder
    `b` of the terms at `a * B + b`. -/
theorem sum_quot_rem {M : Type*} [AddCommMonoid M] (A B N : ℕ) (hN : A * B = N) (f : Fin N → M) :
    ∑ a : Fin A, ∑ b : Fin B, f ⟨a.val * B + b.val, hN ▸ flat_lt a b⟩ = ∑ j : Fin N, f j := by
  subst hN
  rw [← Equiv.sum_comp finProdFinEquiv f, Fintype.sum_prod_type]
  refine Finset.sum_congr rfl fun a _ => Finset.sum_congr rfl fun b _ => congrArg f (Fin.ext ?_)
  simp only [finProdFinEquiv_apply_val]
  ring

/-- The same with the remainder summed outside: the order of the two sums does not matter. -/
theorem sum_rem_quot {M : Type*} [AddCommMonoid M] (A B N : ℕ) (hN : A * B = N) (f : Fin N → M) :
    ∑ b : Fin B, ∑ a : Fin A, f ⟨a.val * B + b.val, hN ▸ flat_lt a b⟩ = ∑ j : Fin N, f j := by
  rw [Finset.sum_comm]
  exact sum_quot_rem A B N hN f

/-! ## One element -/

/-- A one-bit word widened to 32 bits and read signed is the bit read unsigned: 0 or 1. -/
theorem widen_bit (b : BitVec 1) : ((b.setWidth 32).toInt : ℝ) = ((b.toNat : ℕ) : ℝ) := by
  rcases BitVec.eq_zero_or_eq_one b with h | h <;> subst h <;> norm_num

/-- One element's masked squared error: the squared difference, kept where the target is not zero. -/
def term (p t : EReal) : EReal :=
  (p - t) * (p - t) * (((Ideal.cmp .une t (Ideal.ofBits .f32 0x00000000#32)).toNat : ℝ) : EReal)

/-- On the extended reals "ordered and different" and "unordered or different" are both "different", so the mask
    built from the first, widened to a 32-bit word and read signed, is the mask built from the second read unsigned. -/
theorem term_of_ordered (p t : EReal) :
    (p - t) * (p - t) * ((((Ideal.cmp .one t (Ideal.ofBits .f32 0x00000000#32)).setWidth 32).toInt : ℝ) : EReal) = term p t := by
  unfold term
  rw [widen_bit]
  rfl

/-! ## One sample, and the mean over the batch -/

/-- Element `j` of row `b`, as an index of the [4096, 200, 32] array: `(b, j / 32, j % 32)`. -/
def at3 (b : Fin 4096) (j : Fin 6400) : (⟨3, ![4096, 200, 32]⟩ : Shape).Idx :=
  ix3 b (⟨j.val / 32, by have := j.isLt; omega⟩ : Fin 200) (⟨j.val % 32, by omega⟩ : Fin 32)

/-- At the flat position `h * 32 + d` that is `(b, h, d)`. -/
theorem at3_flat (b : Fin 4096) (h : Fin 200) (d : Fin 32) (hlt : h.val * 32 + d.val < 6400) :
    at3 b ⟨h.val * 32 + d.val, hlt⟩ = ix3 b h d := by
  have hd := d.isLt
  funext a
  match a with
  | ⟨0, _⟩ => rfl
  | ⟨1, _⟩ => exact Fin.ext (by show (h.val * 32 + d.val) / 32 = h.val; omega)
  | ⟨2, _⟩ => exact Fin.ext (by show (h.val * 32 + d.val) % 32 = d.val; omega)

/-- One sample's loss: the sum of its 6400 elements' masked squared errors. -/
def row (x0 x1 : FVec Ideal ⟨3, ![4096, 200, 32]⟩ .f32) (b : Fin 4096) : EReal :=
  ∑ j : Fin 6400, term (x0 (at3 b j)) (x1 (at3 b j))

/-- The per-sample losses, as the [4096] array both programs reduce over the batch. -/
def perSample (x0 x1 : FVec Ideal ⟨3, ![4096, 200, 32]⟩ .f32) : FVec Ideal ⟨1, ![4096]⟩ .f32 :=
  fun i => row x0 x1 (i 0)

/-- The mean over the batch as both programs compute it on the host: the sum from the zero word, divided by the
    literal 4096. The two words are never evaluated: they are the same on both sides. -/
def mean (v : FVec Ideal ⟨1, ![4096]⟩ .f32) : FVec Ideal ⟨0, ![]⟩ .f32 :=
  Host.divf (F := Ideal) (Host.reduceAdd (F := Ideal) (axes := [0]) v (constant (F := Ideal) ⟨0, ![]⟩ .f32 0x00000000#32))
    (constant (F := Ideal) ⟨0, ![]⟩ .f32 0x45800000#32)

/-- The loss: the mean of the per-sample masked squared errors. -/
def loss (x0 x1 : FVec Ideal ⟨3, ![4096, 200, 32]⟩ .f32) : FVec Ideal ⟨0, ![]⟩ .f32 :=
  mean (perSample x0 x1)

end Cert.MaskedSqErr

end
-- ==== Proof.RefRow.lean ====
/-
  The reference's per-sample losses are the specification's.

  The reference sums the masked squared errors over the two trailing axes of the [4096, 200, 32] array at once. At a
  sample `b` the indices that reduce to it are exactly the `(b, h, d)`, so the host's sum there is the initial value
  plus the double sum over `h` and `d`; the initial value is the zero word; and the double sum over `(h, d)` is the
  sum over the flat position `h * 32 + d`, which is how the specification lists a row.
-/
import proofs.«133717_j46995532153320_2_alg».proof.Proof.Gen.ReferenceIdeal.Read
import proofs.«133717_j46995532153320_2_alg».proof.Proof.MaskedSqErr

noncomputable section

namespace Cert.ReferenceIdeal.RefValue

open Cert.ReferenceIdeal Cert.ReferenceIdeal.Gen Cert.ReferenceIdeal.Read
open Idealize.ShloMosaic Idealize.ShloMosaic.ValueIdx Cert.MaskedSqErr

/-- An index of the [4096, 200, 32] array reduces, over its two trailing axes, to its leading coordinate. -/
theorem drop_val (k : S4096x200x32.Idx) (b : Fin S4096.rank) :
    ((reducesTo_S4096x200x32_S4096_d1_2.drop k b : Fin _) : ℕ) = (k 0).val := by
  have hlt : b.val < 1 := b.isLt
  have hb : b = ⟨0, by decide⟩ := Fin.ext (by show b.val = 0; omega)
  subst hb
  exact Shape.ReducesTo.drop_apply_val_of_eq reducesTo_S4096x200x32_S4096_d1_2 k ⟨0, by decide⟩ 0

/-- The host's sum over the two trailing axes, at sample `b`: the initial value plus the double sum over `h` and `d`
    of the operand at `(b, h, d)`. -/
theorem hostSum_rows (x : FVec Ideal S4096x200x32 .f32) (init : EReal) (b : Fin 4096) :
    Ideal.hostReduceAdd reducesTo_S4096x200x32_S4096_d1_2 x init (ix1 b)
      = init + ∑ h : Fin 200, ∑ d : Fin 32, x (ix3 b h d) := by
  unfold Ideal.hostReduceAdd
  refine congrArg (init + ·) ?_
  rw [← Finset.sum_product']
  have key : ∀ k : S4096x200x32.Idx, reducesTo_S4096x200x32_S4096_d1_2.drop k = ix1 b → (k 0).val = b.val := by
    intro k hj
    have h := congrArg (fun j : S4096.Idx => (j ⟨0, by decide⟩).val) hj
    rw [drop_val] at h
    exact h
  refine Finset.sum_nbij' (fun k => ((k 1 : Fin 200), (k 2 : Fin 32))) (fun p => ix3 b p.1 p.2) ?_ ?_ ?_ ?_ ?_
  · intro k _
    exact Finset.mem_product.2 ⟨Finset.mem_univ _, Finset.mem_univ _⟩
  · intro p _
    refine Finset.mem_filter.2 ⟨Finset.mem_univ _, ?_⟩
    funext a
    apply Fin.ext
    rw [drop_val]
    have hlt : a.val < 1 := a.isLt
    have ha : a = ⟨0, by decide⟩ := Fin.ext (by show a.val = 0; omega)
    subst ha
    rfl
  · intro k hk
    have h0 := key k (Finset.mem_filter.1 hk).2
    funext a
    match a with
    | ⟨0, _⟩ => exact Fin.ext h0.symm
    | ⟨1, _⟩ => rfl
    | ⟨2, _⟩ => rfl
  · intro p _
    rfl
  · intro k hk
    have h0 := key k (Finset.mem_filter.1 hk).2
    refine congrArg x ?_
    funext a
    match a with
    | ⟨0, _⟩ => exact Fin.ext h0
    | ⟨1, _⟩ => rfl
    | ⟨2, _⟩ => rfl

/-- The reference's masked squared error at one element is the specification's term of the two arguments there. -/
theorem elt_eq (x0 x1 : FVec Ideal S4096x200x32 .f32) (k : S4096x200x32.Idx) :
    val_main_v5 (F := Ideal) x0 x1 k = term (x0 k) (x1 k) := by
  rw [val_main_v5_apply, val_main_v4_apply, val_main_v3_apply, val_main_v2_apply, val_main_v1_apply, val_main_v0_apply,
    val_main_cst_apply]
  rfl

/-- The reference's per-sample sums are the specification's per-sample losses. -/
theorem perSample_eq (x0 x1 : FVec Ideal S4096x200x32 .f32) :
    val_main_v6 (F := Ideal) x0 x1 = perSample x0 x1 := by
  funext i
  obtain ⟨b, rfl⟩ : ∃ b : Fin 4096, i = ix1 b := ⟨i 0, eq_ix1 i⟩
  unfold val_main_v6
  generalize hy : val_main_v5 (F := Ideal) x0 x1 = y
  simp only [Host.reduceAdd, Ideal.hostReduceAdd_def]
  refine (hostSum_rows y _ b).trans ?_
  have hz : val_main_cst_0 (F := Ideal) (Shape.Idx.first h_S_) = 0 := Ideal.ofBits_zero_f32
  rw [hz, zero_add]
  show _ = row x0 x1 b
  unfold row
  refine Eq.trans ?_ (sum_quot_rem 200 32 6400 rfl fun j => term (x0 (at3 b j)) (x1 (at3 b j)))
  refine Finset.sum_congr rfl fun h _ => Finset.sum_congr rfl fun d _ => ?_
  rw [at3_flat b h d, ← hy]
  exact elt_eq x0 x1 _

/-- So the reference's result is the specification's loss. -/
theorem loss_eq (x0 x1 : FVec Ideal S4096x200x32 .f32) : val_main_v8 (F := Ideal) x0 x1 = loss x0 x1 :=
  congrArg mean (perSample_eq x0 x1)

end Cert.ReferenceIdeal.RefValue

end
-- ==== Proof.Payload.lean ====
/-
  What the kernel body stores for one row of its block.

  The body loads a [256, 6400] block of each argument, forms the masked squared error element by element, views the
  result as [256, 50, 128] (entry `(r, s, l)` is entry `(r, s * 128 + l)` of the block, the positions being row-major),
  sums over the 50 segments `s` at each lane `l`, and then sums the 128 lanes. At row `r` that is the double sum over
  `l` and `s` of the terms at flat position `s * 128 + l`: the sum of the row's 6400 terms, the lane summed outside.
-/
import proofs.«133717_j46995532153320_2_alg».proof.Proof.Gen.KernelIdeal.Skeleton
import proofs.«133717_j46995532153320_2_alg».proof.Proof.MaskedSqErr
import Idealize.ShloMosaic.Lib.Pipeline.Value

noncomputable section

namespace Cert.KernelIdeal.RowValue

open Cert.KernelIdeal Cert.KernelIdeal.Gen
open Idealize.ShloMosaic Idealize.ShloMosaic.ValueIdx Cert.MaskedSqErr

/-- The sum over the 128 lanes of a [256, 128] vector, at row `r`. -/
theorem lanes_sum (src : FVec Ideal S256x128 .f32) (hφ : FKind.Formats .f32)
    (hacc : (0x00000000#32 : BitVec 32) = FKind.add.neutral .f32 hφ) (r : Fin 256) :
    multiReduction .add [1] S256 src 0x00000000#32 reduces_S256x128_S256 hφ hacc (ix1 r)
      = ∑ l : Fin 128, src (ix2 r l) :=
  (Ideal.multiReduction_add_single src 0x00000000#32 reduces_S256x128_S256 hφ hacc (ix1 r)).trans
    (Finset.sum_congr rfl fun l _ => congrArg src (funext fun a => by
      match a with
      | ⟨0, _⟩ => rfl
      | ⟨1, _⟩ => rfl))

/-- The sum over the 50 segments of a [256, 50, 128] vector, at row `r` and lane `l`. -/
theorem segs_sum (src : FVec Ideal S256x50x128 .f32) (hφ : FKind.Formats .f32)
    (hacc : (0x00000000#32 : BitVec 32) = FKind.add.neutral .f32 hφ) (r : Fin 256) (l : Fin 128) :
    multiReduction .add [1] S256x128 src 0x00000000#32 reduces_S256x50x128_S256x128 hφ hacc (ix2 r l)
      = ∑ s : Fin 50, src (ix3 r s l) :=
  (Ideal.multiReduction_add_single src 0x00000000#32 reduces_S256x50x128_S256x128 hφ hacc (ix2 r l)).trans
    (Finset.sum_congr rfl fun s _ => congrArg src (funext fun a => by
      match a with
      | ⟨0, _⟩ => rfl
      | ⟨1, _⟩ => rfl
      | ⟨2, _⟩ => rfl))

/-- The [256, 6400] block viewed as [256, 50, 128]: entry `(r, s, l)` is entry `(r, s * 128 + l)`. -/
theorem segments_apply (x : FVec Ideal S256x6400 .f32) (r : Fin 256) (s : Fin 50) (l : Fin 128) :
    shapeCast S256x50x128 x shapeCasts_S256x6400_S256x50x128 (ix3 r s l)
      = x (ix2 r (⟨s.val * 128 + l.val, flat_lt s l⟩ : Fin 6400)) :=
  shapeCast_apply x shapeCasts_S256x6400_S256x50x128 _ _ (by
    rw [Shape.rowMajor_val_two, Shape.rowMajor_val_three]
    show r.val * 6400 + (s.val * 128 + l.val) = (r.val * 50 + s.val) * 128 + l.val
    ring)

/-- The body's masked squared errors, element by element, of the two loaded blocks. -/
def errs (x0 x1 : Vec Ideal S256x6400 .f32) : FVec Ideal S256x6400 .f32 :=
  mulf (mulf (subf x0 x1) (subf x0 x1))
    (sitofp .f32 (extui 32 (cmpf .one x1 (broadcast S256x6400 (Scalar.ofBits (F := Ideal) .f32 0x00000000#32))) natLt_1_32))

/-- At an element they are the specification's term of the two blocks there. -/
theorem errs_apply (x0 x1 : Vec Ideal S256x6400 .f32) (k : S256x6400.Idx) : errs x0 x1 k = term (x0 k) (x1 k) :=
  term_of_ordered (x0 k) (x1 k)

/-- The payload is the two sums of those errors viewed in segments. -/
theorem pay_eq (x0 x1 : Vec Ideal S256x6400 .f32) :
    k0_pay1 (F := Ideal) x0 x1
      = multiReduction .add [1] S256
          (multiReduction .add [1] S256x128 (shapeCast S256x50x128 (errs x0 x1) shapeCasts_S256x6400_S256x50x128)
            0x00000000#32 reduces_S256x50x128_S256x128 (.inl rfl) rfl)
          0x00000000#32 reduces_S256x128_S256 (.inl rfl) rfl := by
  unfold k0_pay1 errs
  simp only [shapeCast_self]

/-- WHAT THE BODY STORES at row `r`: the sum of the row's 6400 masked squared errors. -/
theorem pay_apply (x0 x1 : Vec Ideal S256x6400 .f32) (r : Fin 256) :
    k0_pay1 (F := Ideal) x0 x1 (ix1 r) = ∑ j : Fin 6400, term (x0 (ix2 r j)) (x1 (ix2 r j)) := by
  rw [pay_eq]
  refine (lanes_sum _ _ _ r).trans ?_
  refine (Finset.sum_congr rfl fun l _ => segs_sum _ _ _ r l).trans ?_
  refine (Finset.sum_congr rfl fun l _ => Finset.sum_congr rfl fun s _ =>
    (segments_apply (errs x0 x1) r s l).trans (errs_apply x0 x1 _)).trans ?_
  exact sum_rem_quot 50 128 6400 rfl fun j => term (x0 (ix2 r j)) (x1 (ix2 r j))

end Cert.KernelIdeal.RowValue

end
-- ==== Proof.Blocks.lean ====
/-
  From the kernel's blocks to its whole output array.

  The region reads each argument viewed as [4096, 6400]: entry `(b, j)` of the view is entry `(b, j / 32, j % 32)` of
  the argument, the positions being row-major. Grid point `t` works on rows `256 t … 256 t + 255`: its two input blocks
  are those rows of the two views, and its output block is entries `256 t … 256 t + 255` of the [4096] result. So what
  point `t` writes back at local row `r` is the loss of sample `256 t + r`; the sixteen blocks tile the result (sample
  `b` is in the block of point `b / 256`), and the array after the run is the per-sample losses.
-/
import proofs.«133717_j46995532153320_2_alg».proof.Proof.Gen.KernelIdeal.Frame
import proofs.«133717_j46995532153320_2_alg».proof.Proof.MaskedSqErr
import proofs.«133717_j46995532153320_2_alg».proof.Proof.Payload
import Idealize.ShloMosaic.Lib.StableHlo.Run
import Idealize.ShloMosaic.Lib.Pipeline.Value

set_option maxRecDepth 16384

noncomputable section

namespace Cert.KernelIdeal.RowValue

open Cert.KernelIdeal Cert.KernelIdeal.Gen
open Idealize.ShloMosaic Idealize.ShloMosaic.TcCoe Idealize.ShloMosaic.ValueIdx Idealize.SL.Sem Cert.MaskedSqErr
open Idealize.ShloMosaic.Pipeline (Dat)

variable (m : (ℓ : Loc nD τ sig) → Buf (Elt Ideal) ℓ)

theorem zeros1 : (![0] : Fin 1 → Nat) = fun _ => 0 := funext fun a => by fin_cases a <;> rfl
theorem zeros2 : (![0, 0] : Fin 2 → Nat) = fun _ => 0 := funext fun a => by fin_cases a <;> rfl

/-! ## The region's operands are the arguments viewed as [4096, 6400] -/

theorem view0 (c : Dev nD) : (V (F := Ideal) m c main_v0 : S4096x6400.Idx → EReal)
    = shapeCast S4096x6400 (m ((c : Thread nD τ).loc main_arg0)) shapeCasts_S4096x200x32_S4096x6400 := by
  show StableHlo.after hostOps0 (fun b => m (c, b)) (Proc.devRef .tc main_v0) = _
  after_results
  rfl

theorem view1 (c : Dev nD) : (V (F := Ideal) m c main_v1 : S4096x6400.Idx → EReal)
    = shapeCast S4096x6400 (m ((c : Thread nD τ).loc main_arg1)) shapeCasts_S4096x200x32_S4096x6400 := by
  show StableHlo.after hostOps0 (fun b => m (c, b)) (Proc.devRef .tc main_v1) = _
  after_results
  rfl

/-- Entry `(b, j)` of the view of an array is its entry `(b, j / 32, j % 32)`. -/
theorem view_apply (x : S4096x200x32.Idx → EReal) (b : Fin 4096) (j : Fin 6400) :
    shapeCast S4096x6400 x shapeCasts_S4096x200x32_S4096x6400 (ix2 b j) = x (at3 b j) :=
  shapeCast_apply x shapeCasts_S4096x200x32_S4096x6400 _ _ (by
    have hj := j.isLt
    rw [Shape.rowMajor_val_three, Shape.rowMajor_val_two]
    show (b.val * 200 + j.val / 32) * 32 + j.val % 32 = b.val * 6400 + j.val
    omega)

theorem view0_apply (c : Dev nD) (b : Fin 4096) (j : Fin 6400) :
    V (F := Ideal) m c main_v0 (ix2 b j) = m ((c : Thread nD τ).loc main_arg0) (at3 b j) :=
  (congrFun (view0 m c) (ix2 b j)).trans (view_apply _ b j)

theorem view1_apply (c : Dev nD) (b : Fin 4096) (j : Fin 6400) :
    V (F := Ideal) m c main_v1 (ix2 b j) = m ((c : Thread nD τ).loc main_arg1) (at3 b j) :=
  (congrFun (view1 m c) (ix2 b j)).trans (view_apply _ b j)

/-! ## The blocks of a grid point -/

/-- The printed index maps, decided over the sixteen points: both input windows move with the output window along
    the rows and stay at column block zero, and the output's block index is at most 15. -/
theorem index_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_2.index t (0 : Fin 1) ≤ 15 :=
  (by decide +kernel : ∀ t : Fin grid0.N, _)

/-- Every block of the result is some point's. -/
theorem index_onto : ∀ q : Fin 16, ∃ t : Fin cfg0.N, win0_2.index t (0 : Fin 1) = q.val :=
  (by decide +kernel : ∀ q : Fin 16, ∃ t : Fin grid0.N, win0_2.index t (0 : Fin 1) = q.val)

/-- Point `t`'s block of the first operand, at local row `r`, is row `b = 256 t + r` of the first argument. -/
theorem block0_apply (c : Dev nD) (t : Fin cfg0.N) (r : Fin 256) (j : Fin 6400) (b : Fin 4096)
    (hb : b.val = win0_2.index t (0 : Fin 1) * 256 + r.val) :
    iblk (F := Ideal) m c 0 t (ix2 r j) = m ((c : Thread nD τ).loc main_arg0) (at3 b j) := by
  obtain ⟨e0, e1, e2, e3, e4⟩ := index_facts t
  show V m c main_v0 (((cfg0.win 0).blk t).view.emb (ix2 r j)) = _
  have he : ((cfg0.win 0).blk t).view.emb (ix2 r j) = ix2 b j := by
    funext a; apply Fin.ext
    match a with
    | ⟨0, _⟩ => show win0_0.index t (0 : Fin 2) * 256 + 1 * r.val = b.val; omega
    | ⟨1, _⟩ => show win0_0.index t (1 : Fin 2) * 6400 + 1 * j.val = j.val; omega
  rw [he]
  exact view0_apply m c b j

/-- The same for the second operand. -/
theorem block1_apply (c : Dev nD) (t : Fin cfg0.N) (r : Fin 256) (j : Fin 6400) (b : Fin 4096)
    (hb : b.val = win0_2.index t (0 : Fin 1) * 256 + r.val) :
    iblk (F := Ideal) m c 1 t (ix2 r j) = m ((c : Thread nD τ).loc main_arg1) (at3 b j) := by
  obtain ⟨e0, e1, e2, e3, e4⟩ := index_facts t
  show V m c main_v1 (((cfg0.win 1).blk t).view.emb (ix2 r j)) = _
  have he : ((cfg0.win 1).blk t).view.emb (ix2 r j) = ix2 b j := by
    funext a; apply Fin.ext
    match a with
    | ⟨0, _⟩ => show win0_1.index t (0 : Fin 2) * 256 + 1 * r.val = b.val; omega
    | ⟨1, _⟩ => show win0_1.index t (1 : Fin 2) * 6400 + 1 * j.val = j.val; omega
  rw [he]
  exact view1_apply m c b j

/-- WHAT POINT `t` WRITES BACK is block `t` of the per-sample losses of the two arguments. -/
theorem flushed_eq (c : Dev nD) (t : Fin cfg0.N) :
    (dats (F := Ideal) m 0 c).flushed 2 t
      = ((cfg0.win 2).blk t).view.read (Elt Ideal)
          (perSample (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zeros1]
  simp only [View.ld_unit_zero (S := S256x6400) zeros2]
  funext y
  obtain ⟨r, rfl⟩ : ∃ r : Fin 256, y = ix1 r := ⟨y 0, eq_ix1 y⟩
  obtain ⟨e0, e1, e2, e3, e4⟩ := index_facts t
  have hr := r.isLt
  obtain ⟨b, hb⟩ : ∃ b : Fin 4096, b.val = win0_2.index t (0 : Fin 1) * 256 + r.val :=
    ⟨⟨win0_2.index t (0 : Fin 1) * 256 + r.val, by omega⟩, rfl⟩
  have he : ((cfg0.win 2).blk t).view.emb (ix1 r) = ix1 b := by
    funext a; apply Fin.ext
    match a with
    | ⟨0, _⟩ => show win0_2.index t (0 : Fin 1) * 256 + 1 * r.val = b.val; omega
  show k0_pay1 (iblk m c 0 t) (iblk m c 1 t) (ix1 r)
    = perSample (m ((c : Thread nD τ).loc main_arg0)) (m ((c : Thread nD τ).loc main_arg1)) (((cfg0.win 2).blk t).view.emb (ix1 r))
  rw [he]
  show _ = row (m ((c : Thread nD τ).loc main_arg0)) (m ((c : Thread nD τ).loc main_arg1)) b
  refine (pay_apply (iblk m c 0 t) (iblk m c 1 t) r).trans ?_
  unfold row
  exact Finset.sum_congr rfl fun j _ => by rw [block0_apply m c t r j b hb, block1_apply m c t r j b hb]

/-! ## The sixteen blocks tile the result -/

/-- A sample is in point `t`'s block iff it lies in the block's range of 256 samples. -/
theorem mem_block (t : Fin cfg0.N) (i : S4096.Idx) :
    i ∈ ((cfg0.win 2).blk t).view.set ↔ ∀ a : Fin 1, win0_2.index t a * S256.size a ≤ (i a).val ∧ (i a).val < win0_2.index t a * S256.size a + S256.size a := by
  show i ∈ ((View.whole main_v2).slice (win0_2.rect t)).set ↔ _
  rw [View.set_slice_whole, Rect.mem_set_unit]
  exact Iff.rfl

/-- Sample `i` is in the block of the point whose block index is `i / 256`. -/
theorem covered (i : S4096.Idx) :
    ∃ t : Fin cfg0.N, (cfg0.win 2).flush t = true ∧ i ∈ ((cfg0.win 2).blk t).view.set := by
  have hi : (i 0).val < 4096 := (i 0).isLt
  obtain ⟨t, ht⟩ := index_onto ⟨(i 0).val / 256, by omega⟩
  have ht' : win0_2.index t (0 : Fin 1) = (i 0).val / 256 := ht
  refine ⟨t, flush0_2 t, ?_⟩
  rw [mem_block]
  intro a
  match a with
  | ⟨0, _⟩ =>
    show win0_2.index t (0 : Fin 1) * 256 ≤ (i 0).val ∧ (i 0).val < win0_2.index t (0 : Fin 1) * 256 + 256
    omega

/-- THE RESULT ARRAY after the run: the per-sample losses of the two arguments. -/
theorem final (c : Dev nD) :
    (dats (F := Ideal) m 0 c).arrAt 2 cfg0.N
      = perSample (m ((c : Thread nD τ).loc main_arg0)) (m ((c : Thread nD τ).loc main_arg1)) :=
  (dats m 0 c).arrAt_eq_of_cover 2 _ (fun t _ => flushed_eq m c t) covered

end Cert.KernelIdeal.RowValue

end
-- ==== Proof.KernelRun.lean ====
/-
  The kernel's run, read as a value.

  After the region the program sums the [4096] result over the batch from the zero word and divides by the literal
  4096: the mean, applied to the region's result array, which is the per-sample losses. So every execution ends with
  the result buffer at the loss of the two arguments, and with the arguments as they were.
-/
import proofs.«133717_j46995532153320_2_alg».proof.Proof.Blocks

set_option maxRecDepth 16384

noncomputable section

namespace Cert.KernelIdeal.RowValue

open Cert.KernelIdeal Cert.KernelIdeal.Gen
open Idealize.ShloMosaic Idealize.ShloMosaic.TcCoe Idealize.ShloMosaic.ValueIdx Idealize.SL.Sem Cert.MaskedSqErr
open Idealize.ShloMosaic.Pipeline (Dat)

variable (m : (ℓ : Loc nD τ sig) → Buf (Elt Ideal) ℓ) (ρ : Dev nD → PrngReg)

/-- The host lines after the region leave the result buffer at the mean of the region's result array. -/
theorem tail_eq (c : Dev nD) :
    Pipeline.afterTail₀ cfgs (dats (F := Ideal) m) 0 (V0 m) [hostOps1] c main_v4
      = loss (m ((c : Thread nD τ).loc main_arg0)) (m ((c : Thread nD τ).loc main_arg1)) := by
  unfold Pipeline.afterTail₀
  show StableHlo.after hostOps1 _ (Proc.devRef .tc main_v4) = _
  after_results
  exact congrArg mean ((Pipeline.withArrays_arr spec0 launch0.win.arr_inj c _ _ 2).trans (final m c))

/-- Every weakly fair execution of the idealized kernel's program terminates with the result buffer at the loss of the
    two arguments, and the arguments unchanged. -/
theorem run : θ_run defs (onTc (τ := τ) (main (F := Ideal))) ⟨m, fun _ => 0, ρ⟩ fun r => ∀ c : Dev nD,
      r.2.mem ((c : Thread nD τ).loc main_v4) = loss (m ((c : Thread nD τ).loc main_arg0)) (m ((c : Thread nD τ).loc main_arg1))
      ∧ r.2.mem ((c : Thread nD τ).loc main_v4) = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
       ((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RowValue

end
-- ==== Proof.lean ====
/-
  A masked squared-error loss: per sample, the sum over the 200 × 32 entries of `(pred - targ)² · [targ ≠ 0]`; then the
  mean over the 4096 samples.

  The kernel views each argument as [4096, 6400], takes 256 rows at a time, forms the masked squared errors, and sums a
  row in two stages: over the 50 segments of 128 lanes at each lane, then over the 128 lanes. The reference sums a
  sample's [200, 32] entries at once. On the extended reals both are the sum of the same 6400 terms, `h * 32 + d` and
  `s * 128 + l` being two ways to list one flat range, and a finite sum does not depend on the order or the grouping
  of its terms; no finiteness of the inputs is used. The mask is "ordered and different" widened to a 32-bit word and
  read signed in the kernel, "unordered or different" read unsigned in the reference: on the extended reals both are 1
  where the target is not zero and 0 where it is. The mean over the batch is the same host sum and the same division by
  the literal 4096 in both programs, applied to equal per-sample arrays.

  The three frames are the generated ones (the reference's is its generated run with the result dropped); the ideal
  pass rewrote nothing, so the idealization claim is trivial.
-/
import proofs.«133717_j46995532153320_2_alg».proof.Defs
import proofs.«133717_j46995532153320_2_alg».proof.Proof.Gen.Kernel
import proofs.«133717_j46995532153320_2_alg».proof.Proof.Gen.Kernel.Skeleton
import proofs.«133717_j46995532153320_2_alg».proof.Proof.Gen.Kernel.Launch
import proofs.«133717_j46995532153320_2_alg».proof.Proof.Gen.Kernel.Points
import proofs.«133717_j46995532153320_2_alg».proof.Proof.Gen.Kernel.Frame
import proofs.«133717_j46995532153320_2_alg».proof.Proof.Gen.KernelIdeal
import proofs.«133717_j46995532153320_2_alg».proof.Proof.Gen.KernelIdeal.Skeleton
import proofs.«133717_j46995532153320_2_alg».proof.Proof.Gen.KernelIdeal.Launch
import proofs.«133717_j46995532153320_2_alg».proof.Proof.Gen.KernelIdeal.Points
import proofs.«133717_j46995532153320_2_alg».proof.Proof.Gen.KernelIdeal.Frame
import proofs.«133717_j46995532153320_2_alg».proof.Proof.Gen.ReferenceIdeal
import proofs.«133717_j46995532153320_2_alg».proof.Proof.Gen.ReferenceIdeal.Run
import proofs.«133717_j46995532153320_2_alg».proof.Proof.Gen.ReferenceIdeal.Read
import proofs.«133717_j46995532153320_2_alg».proof.Proof.Gen.Pre_finite_inputs
import proofs.«133717_j46995532153320_2_alg».proof.Proof.RefRow
import proofs.«133717_j46995532153320_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the result at the loss of the arguments: the kernel's by its blocks and the
    host's mean over them, the reference's by its per-sample sums re-listed along the flat range. -/
theorem algebraic : Cert.algebraic_KernelIdeal_ReferenceIdeal := by
  intro m ρ m' ρ' _ hagree
  refine ⟨_, _, Cert.KernelIdeal.RowValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v8_eq, Cert.ReferenceIdeal.RefValue.loss_eq, (hagree c).1, (hagree c).2]
  · rw [(h c).2.1, Cert.ReferenceIdeal.Read.val_main_v8_eq, Cert.ReferenceIdeal.RefValue.loss_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
